-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S256x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1600000 32) (main_arg2 : FVec F S1600000 .f32) (main_arg3 : IVec S2x200000 32) (main_arg4 : FVec F S64x64 .f32) (main_arg5 : FVec F S64 .f32) (main_arg6 : FVec F S64x64 .f32) (main_arg7 : FVec F S64 .f32) (main_arg8 : FVec F S256x64 .f32) (main_arg9 : FVec F S64 .f32) (main_arg10 : FVec F S64x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S1x1600000 : Shape := ⟨2, ![1, 1600000]⟩
abbrev S1x200000 : Shape := ⟨2, ![1, 200000]⟩
abbrev S200000 : Shape := ⟨1, ![200000]⟩
abbrev S_ : Shape := ⟨0, ![]⟩
abbrev S1600000x1 : Shape := ⟨2, ![1600000, 1]⟩
abbrev S1600000x64 : Shape := ⟨2, ![1600000, 64]⟩
abbrev S200000x1 : Shape := ⟨2, ![200000, 1]⟩
abbrev S200000x64 : Shape := ⟨2, ![200000, 64]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩

abbrev nBuf : Space → Nat
  | .hbm => 61
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S2x200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1x200000, .i32⟩
  | .hbm, ⟨17, _⟩ => ⟨S200000, .i32⟩
  | .hbm, ⟨18, _⟩ => ⟨S1x200000, .i32⟩
  | .hbm, ⟨19, _⟩ => ⟨S200000, .i32⟩
  | .hbm, ⟨20, _⟩ => ⟨S100000x64, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .bf16⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .bf16⟩
  | .hbm, ⟨36, _⟩ => ⟨S_, .i32⟩
  | .hbm, ⟨37, _⟩ => ⟨S200000, .i32⟩
  | .hbm, ⟨38, _⟩ => ⟨S200000, .i1⟩
  | .hbm, ⟨39, _⟩ => ⟨S_, .i32⟩
  | .hbm, ⟨40, _⟩ => ⟨S200000, .i32⟩
  | .hbm, ⟨41, _⟩ => ⟨S200000, .i32⟩
  | .hbm, ⟨42, _⟩ => ⟨S200000, .i32⟩
  | .hbm, ⟨43, _⟩ => ⟨S200000x1, .i32⟩
  | .hbm, ⟨44, _⟩ => ⟨S200000x64, .bf16⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x64, .bf16⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S200000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S10000x64, .bf16⟩
  | .local _ .vmem, ⟨9, _⟩ => ⟨S10000x64, .bf16⟩
  | .local _ .vmem, ⟨10, _⟩ => ⟨S10000x64, .bf16⟩
  | .local _ .vmem, ⟨11, _⟩ => ⟨S10000x64, .bf16⟩
  | .local _ .vmem, ⟨12, _⟩ => ⟨S10000x64, .bf16⟩
  | .local _ .vmem, ⟨13, _⟩ => ⟨S10000x64, .bf16⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S64x1, .f32⟩
  | .local _ .vmem, ⟨19, _⟩ => ⟨S1, .f32⟩
  | .local _ .vmem, ⟨20, _⟩ => ⟨S10000x1, .f32⟩
  | .local _ .vmem, ⟨21, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_c_0 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_cst : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_c_1 : Ref sig .tc := ⟨.hbm, 36, rfl⟩
abbrev main_call0_v21 : Ref sig .tc := ⟨.hbm, 37, rfl⟩
abbrev main_call0_v22 : Ref sig .tc := ⟨.hbm, 38, rfl⟩
abbrev main_call0_c_2 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_c_3 : Ref sig .tc := ⟨.hbm, 45, rfl⟩
abbrev main_call0_v28 : Ref sig .tc := ⟨.hbm, 46, rfl⟩
abbrev main_call0_v29 : Ref sig .tc := ⟨.hbm, 47, rfl⟩
abbrev main_call0_c_4 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_v40 : Ref sig .tc := ⟨.hbm, 59, rfl⟩
abbrev main_v0 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S200000 : S_.BroadcastsInDim S200000 (![] : Fin 0 → Fin S200000.rank)
  bcast_S200000_S200000x1_0 : S200000.BroadcastsInDim S200000x1 (![0] : Fin 1 → Fin S200000x1.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .bf16 = 32 ∨ (Rect.block (s := S100000x64) S10000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .bf16 = 32 ∨ (Rect.block (s := S200000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .bf16 = 32 ∨ (Rect.block (s := S200000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x1.size a ≤ S200000x1.size a
  hwx1_8 : ∀ i : grid1.Coords, EltTy.bits .f32 = 32 ∨ (Rect.block (s := S200000x1) S10000x1.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v34) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v40) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v36) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S10000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x256 : Shape := ⟨2, ![200000, 256]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S2x200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1600000, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x200000, .i32⟩
  | .hbm, ⟨50, _⟩ => ⟨S200000, .i32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x64, .f32⟩
  | .hbm, ⟨60, _⟩ => ⟨S1x200000, .i32⟩
  | .hbm, ⟨61, _⟩ => ⟨S200000, .i32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S200000x64, .f32⟩
  | .hbm, ⟨71, _⟩ => ⟨S200000x64, .f32⟩
  | .hbm, ⟨72, _⟩ => ⟨S200000x64, .f32⟩
  | .hbm, ⟨73, _⟩ => ⟨S200000x256, .f32⟩
  | .hbm, ⟨74, _⟩ => ⟨S200000x64, .f32⟩
  | .hbm, ⟨75, _⟩ => ⟨S1x64, .f32⟩
  | .hbm, ⟨76, _⟩ => ⟨S200000x64, .f32⟩
  | .hbm, ⟨77, _⟩ => ⟨S200000x64, .f32⟩
  | .hbm, ⟨78, _⟩ => ⟨S_, .f32⟩
  | .hbm, ⟨79, _⟩ => ⟨S200000x64, .f32⟩
  | .hbm, ⟨80, _⟩ => ⟨S200000x64, .f32⟩
  | .hbm, ⟨81, _⟩ => ⟨S200000x1, .f32⟩
  | .hbm, ⟨82, _⟩ => ⟨S1x1, .f32⟩
  | .hbm, ⟨83, _⟩ => ⟨S200000x1, .f32⟩
  | .hbm, ⟨84, _⟩ => ⟨S200000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x64_S200000x64_S200000x256_d1 : Shape.Concatenates [S200000x64, S200000x64, S200000x64, S200000x64] S200000x256 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x256_S256x64_S200000x64_1_0_0_1_n_n_wf : DotDims.WF S200000x256 S256x64 S200000x64 [1] [0] [0] [1] [] []
  dot_S200000x64_S64x1_S200000x1_1_0_0_1_n_n_wf : DotDims.WF S200000x64 S64x1 S200000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KRun.lean ====
/-
  The idealized kernel program runs, and when it returns every buffer of a core holds what the last stretch of
  the program leaves there: the arrays of the second kernel launch at what its grid points wrote back, every other
  buffer as the host operations before that launch left it. In particular the result buffer is named, and the
  twelve argument arrays are as launched.
-/
import proofs.«131416_j17360257810534_2_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer ends at the contents
    of the last segment boundary, and the argument arrays end as launched. -/
theorem run_boundary : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.Spec.lean ====
/-
  The mathematics of the certificate, row by row, with no program in sight.

  A node's encoder input is `2·x + s` (the node's own features twice, plus the sum `s` of its in-neighbours'
  features); the reference spells the same number `1·x + (s + x)`. Two dense layers with a ReLU each give the
  node's embedding. A query pair `(e1, e2)` of embeddings is scored by a dense layer over the 256 features
  `[e1 + e2, e1 * e2, e1, e2]` against a 256×64 weight matrix, a ReLU, and a last 64×1 layer. The kernel never
  builds the 256 features: it multiplies `e1`, `e2` and `e1 * e2` by the folded 64×64 blocks
  `A + C`, `A + D` and `B` of the weight matrix (rows 0–63, 64–127, 128–191, 192–255 are `A`, `B`, `C`, `D`).
  The two agree by distributivity, which on the extended reals needs every number involved to be finite.
-/
import Idealize.ShloMosaic.PureOps.Ideal
import Idealize.ShloMosaic.Lib.ValueIdx

noncomputable section

namespace Cert.GinPair

open Idealize.ShloMosaic Idealize.ShloMosaic.ValueIdx

/-- A matrix and a vector of extended reals, as functions of literal-shape indices. -/
abbrev Mat (a b : Nat) := (⟨2, ![a, b]⟩ : Shape).Idx → EReal
abbrev Vc (a : Nat) := (⟨1, ![a]⟩ : Shape).Idx → EReal

/-- An extended real that is a real number. -/
def IsReal (x : EReal) : Prop := ∃ r : ℝ, x = (r : EReal)

/-- The float literals `0.0`, `1.0`, `2.0` as the programs spell them. -/
abbrev zeroLit : EReal := Ideal.ofBits .f32 0x00000000#32
abbrev oneLit : EReal := Ideal.ofBits .f32 0x3F800000#32
abbrev twoLit : EReal := Ideal.ofBits .f32 0x40000000#32

/-- The encoder's input as the kernel computes it: `2·x + s`. -/
def hinK (x s : EReal) : EReal := twoLit * x + s
/-- The encoder's input as the reference computes it: `1·x + (s + x)`. -/
def hinR (x s : EReal) : EReal := oneLit * x + (s + x)

/-- One dense layer and its ReLU at output column `j`: `max (u · w[:, j] + b[j]) 0`. -/
def dense {K N : Nat} (u : Fin K → EReal) (w : Mat K N) (b : Vc N) (j : Fin N) : EReal :=
  max ((∑ k : Fin K, u k * w (ix2 k j)) + b (ix1 j)) zeroLit

/-- A node's embedding from its encoder input row: two dense layers. -/
def enc (u : Fin 64 → EReal) (w1 : Mat 64 64) (b1 : Vc 64) (w2 : Mat 64 64) (b2 : Vc 64) : Fin 64 → EReal :=
  dense (dense u w1 b1) w2 b2

/-- The pair's score as the kernel computes it, from the folded weight blocks. -/
def decK (e1 e2 : Fin 64 → EReal) (we1 we2 wp : Mat 64 64) (db1 : Vc 64) (dw2 : Mat 64 1) (db2 : Vc 1) (q : Fin 1) : EReal :=
  (∑ j : Fin 64, max ((((∑ k : Fin 64, e1 k * we1 (ix2 k j)) + (∑ k : Fin 64, e2 k * we2 (ix2 k j)))
      + (∑ k : Fin 64, (e1 k * e2 k) * wp (ix2 k j))) + db1 (ix1 j)) zeroLit * dw2 (ix2 j q)) + db2 (ix1 q)

/-- The 256 pair features `[e1 + e2, e1 * e2, e1, e2]`. -/
def feat (e1 e2 : Fin 64 → EReal) (k : Fin 256) : EReal :=
  if h0 : k.val < 64 then e1 ⟨k.val, h0⟩ + e2 ⟨k.val, h0⟩
  else if h1 : k.val < 128 then e1 ⟨k.val - 64, by omega⟩ * e2 ⟨k.val - 64, by omega⟩
  else if h2 : k.val < 192 then e1 ⟨k.val - 128, by omega⟩
  else e2 ⟨k.val - 192, by omega⟩

/-- The pair's score as the reference computes it, from the 256 features and the whole weight matrix. -/
def decR (e1 e2 : Fin 64 → EReal) (dw1 : Mat 256 64) (db1 : Vc 64) (dw2 : Mat 64 1) (db2 : Vc 1) (q : Fin 1) : EReal :=
  (∑ j : Fin 64, max ((∑ k : Fin 256, feat e1 e2 k * dw1 (ix2 k j)) + db1 (ix1 j)) zeroLit * dw2 (ix2 j q)) + db2 (ix1 q)

/-- Row block `o` (rows `o … o+63`) of the 256×64 weight matrix. -/
def blockOf (dw1 : Mat 256 64) (o : Nat) (ho : o + 64 ≤ 256) : Mat 64 64 :=
  fun i => dw1 (ix2 ⟨o + (i 0).val, by have h : (i 0).val < 64 := (i 0).isLt; omega⟩ (i 1))

/-- The folded blocks the kernel multiplies by: `A + C`, `A + D`, `B`. -/
def foldAC (dw1 : Mat 256 64) : Mat 64 64 := fun i => blockOf dw1 0 (by omega) i + blockOf dw1 128 (by omega) i
def foldAD (dw1 : Mat 256 64) : Mat 64 64 := fun i => blockOf dw1 0 (by omega) i + blockOf dw1 192 (by omega) i
def blockB (dw1 : Mat 256 64) : Mat 64 64 := blockOf dw1 64 (by omega)

end Cert.GinPair

end
-- ==== Proof.SpecArr.lean ====
/-
  The same mathematics as whole arrays: row `i 0` of an array of node (or pair) rows, column `i 1`.
-/
import proofs.«131416_j17360257810534_2_alg».proof.Proof.Spec

noncomputable section

namespace Cert.GinPair

open Idealize.ShloMosaic Idealize.ShloMosaic.ValueIdx

/-- The embeddings of `n` nodes, the kernel's way: row by row, `enc` of `2·x + s`. -/
def encArr {n : Nat} (x s : Mat n 64) (w1 : Mat 64 64) (b1 : Vc 64) (w2 : Mat 64 64) (b2 : Vc 64) : Mat n 64 :=
  fun i => enc (fun l => hinK (x (ix2 (i 0) l)) (s (ix2 (i 0) l))) w1 b1 w2 b2 (i 1)

/-- The scores of `n` pairs, the kernel's way: row by row, from the folded weight blocks. -/
def decArr {n : Nat} (e1 e2 : Mat n 64) (we1 we2 wp : Mat 64 64) (db1 : Vc 64) (dw2 : Mat 64 1) (db2 : Vc 1) : Mat n 1 :=
  fun i => decK (fun k => e1 (ix2 (i 0) k)) (fun k => e2 (ix2 (i 0) k)) we1 we2 wp db1 dw2 db2 (i 1)

/-- Rows `o … o + n − 1` of an array of `N` rows. -/
def rowsFrom {n N w : Nat} (o : Nat) (ho : o + n ≤ N) (X : Mat N w) : Mat n w :=
  fun y => X (ix2 ⟨o + (y 0).val, by have h : (y 0).val < n := (y 0).isLt; omega⟩ (y 1))

/-- A block of rows of the embeddings is the embeddings of that block of rows. -/
theorem encArr_rows {n N : Nat} (o : Nat) (ho : o + n ≤ N) (X S : Mat N 64) (w1 : Mat 64 64) (b1 : Vc 64) (w2 : Mat 64 64)
    (b2 : Vc 64) : encArr (rowsFrom o ho X) (rowsFrom o ho S) w1 b1 w2 b2 = rowsFrom o ho (encArr X S w1 b1 w2 b2) := rfl

/-- A block of rows of the scores is the scores of that block of rows. -/
theorem decArr_rows {n N : Nat} (o : Nat) (ho : o + n ≤ N) (E1 E2 : Mat N 64) (we1 we2 wp : Mat 64 64) (db1 : Vc 64)
    (dw2 : Mat 64 1) (db2 : Vc 1) :
    decArr (rowsFrom o ho E1) (rowsFrom o ho E2) we1 we2 wp db1 dw2 db2 = rowsFrom o ho (decArr E1 E2 we1 we2 wp db1 dw2 db2) := rfl

end Cert.GinPair

end
-- ==== Proof.Payload.lean ====
/-
  The two kernels' arithmetic, read one element at a time.

  The encoder kernel stores, for each of the 10000 rows of a block, the row's embedding: the encoder input
  `2·x + s` through two dense layers, each followed by a ReLU. The decoder kernel stores, for each of the 10000
  query pairs of a block, the pair's score from the folded weight blocks. Each stored block is one pure term of the
  blocks loaded before it. Here that term is read at a row `r` and a column: every pointwise operation reads through
  to its operands at the same place, a bias row broadcast over the rows reads the bias at the column, and a matrix
  product against a zero accumulator reads the sum over the 64 contracted positions `k` of the left operand at
  `(r, k)` times the right operand at `(k, c)`. What is left is the row's mathematics as `Spec.lean` writes it.
-/
import proofs.«131416_j17360257810534_2_alg».proof.Proof.Spec
import proofs.«131416_j17360257810534_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Cert.KernelIdeal Cert.KernelIdeal.Gen Cert.GinPair Idealize.ShloMosaic Idealize.ShloMosaic.ValueIdx

/-! ## A matrix product against a zero accumulator, read at `(r, c)` -/

/-- The [10000,64] × [64,64] product at `(r, c)`: the left operand's index on the row axis is `r` … -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the right operand's index on the column axis is `c`. -/
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] × [64,64] product against a zero accumulator at `(r, c)` is `∑ k, l (r, k) * w (k, c)`. -/
theorem matmul64_apply {φ₁ φ₂ : FTy} (l : FVec Ideal S10000x64 φ₁) (w : FVec Ideal S64x64 φ₂) (r : Fin 10000) (c : Fin 64) :
    matmul dot_S10000x64_S64x64_S10000x64_1_0_0_1_n_n none l w (constant S10000x64 .f32 0x00000000#32) (ix2 r c)
      = ∑ k : Fin 64, l (ix2 r k) * w (ix2 k c) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r c) ((ValueIdx.contrEquiv1 dot_S10000x64_S64x64_S10000x64_1_0_0_1_n_n 64 rfl rfl).symm k) = ix2 r k := funext fun a => Fin.ext (by
    match a with
    | ⟨0, _⟩ => exact lhs64_0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 r c) ((ValueIdx.contrEquiv1 dot_S10000x64_S64x64_S10000x64_1_0_0_1_n_n 64 rfl rfl).symm k) = ix2 k c := funext fun a => Fin.ext (by
    match a with
    | ⟨0, _⟩ => exact (dot_S10000x64_S64x64_S10000x64_1_0_0_1_n_n.rhsIdx_val_of_single rfl _ _).trans hk
    | ⟨1, _⟩ => exact rhs64_1 _ _)
  rw [el, er]

/-- The [10000,64] × [64,1] product at `(r, q)`: the left operand's index on the row axis is `r` … -/
theorem lhs1_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
/-- … and the right operand's index on the column axis is `q`. -/
theorem rhs1_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- A [10000,64] × [64,1] product against a zero accumulator at `(r, q)` is `∑ k, l (r, k) * w (k, q)`. -/
theorem matmul1_apply {φ₁ φ₂ : FTy} (l : FVec Ideal S10000x64 φ₁) (w : FVec Ideal S64x1 φ₂) (r : Fin 10000) (q : Fin 1) :
    matmul dot_S10000x64_S64x1_S10000x1_1_0_0_1_n_n none l w (constant S10000x1 .f32 0x00000000#32) (ix2 r q)
      = ∑ k : Fin 64, l (ix2 r k) * w (ix2 k q) := by
  simp only [matmul]
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 r q) ((ValueIdx.contrEquiv1 dot_S10000x64_S64x1_S10000x1_1_0_0_1_n_n 64 rfl rfl).symm k) = ix2 r k := funext fun a => Fin.ext (by
    match a with
    | ⟨0, _⟩ => exact lhs1_0 _ _
    | ⟨1, _⟩ => exact (dot_S10000x64_S64x1_S10000x1_1_0_0_1_n_n.lhsIdx_val_of_single rfl _ _).trans hk)
  have er : dot_S10000x64_S64x1_S10000x1_1_0_0_1_n_n.rhsIdx (ix2 r q) ((ValueIdx.contrEquiv1 dot_S10000x64_S64x1_S10000x1_1_0_0_1_n_n 64 rfl rfl).symm k) = ix2 k q := funext fun a => Fin.ext (by
    match a with
    | ⟨0, _⟩ => exact (dot_S10000x64_S64x1_S10000x1_1_0_0_1_n_n.rhsIdx_val_of_single rfl _ _).trans hk
    | ⟨1, _⟩ => exact rhs1_1 _ _)
  rw [el, er]

/-! ## A bias broadcast over the rows, read at `(r, c)` -/

/-- A 64-vector viewed as one row and broadcast over 10000 rows reads, at `(r, c)`, the vector at `c`. -/
theorem bias64_apply {α : Type} (b : S64.Idx → α) (r : Fin 10000) (c : Fin 64) :
    broadcastTo S10000x64 (shapeCast S1x64 b shapeCasts_S64_S1x64) broadcasts_S1x64_S10000x64 (ix2 r c) = b (ix1 c) :=
  (broadcastTo_1b_ab_apply _ broadcasts_S1x64_S10000x64 r c).trans (shapeCast_a_1a_apply b shapeCasts_S64_S1x64 0 c)

/-- A 1-vector viewed as a 1×1 matrix and broadcast over 10000 rows reads, at `(r, q)`, the vector at `q`. -/
theorem bias1_apply {α : Type} (b : S1.Idx → α) (r : Fin 10000) (q : Fin 1) :
    broadcastTo S10000x1 (shapeCast S1x1 b shapeCasts_S1_S1x1) broadcasts_S1x1_S10000x1 (ix2 r q) = b (ix1 q) :=
  (broadcastTo_1b_ab_apply _ broadcasts_S1x1_S10000x1 r q).trans (shapeCast_a_1a_apply b shapeCasts_S1_S1x1 0 q)

/-! ## The encoder kernel's stored block at `(r, c)` -/

/-- Row `r`, column `c` of the block the encoder kernel stores is the embedding's coordinate `c` of the row's encoder
    input `2·x + s`: every format change is the identity on extended reals, the two products are the two dense layers'
    sums, the two broadcast biases read at their column and the two maxima against the zero literal are the two ReLUs. -/
theorem k0_pay1_apply (v0 v1 : Vec Ideal S10000x64 .f32) (v6 : Vec Ideal S64x64 .f32) (v8 : Vec Ideal S64 .f32)
    (v9 : Vec Ideal S64x64 .f32) (v11 : Vec Ideal S64 .f32) (r : Fin 10000) (c : Fin 64) :
    k0_pay1 (F := Ideal) v0 v1 v6 v8 v9 v11 (ix2 r c)
      = enc (fun l => hinK (v0 (ix2 r l)) (v1 (ix2 r l))) v6 v8 v9 v11 c := by
  unfold k0_pay1
  simp only [truncf_apply, maximumf_apply, addf_apply, mulf_apply, broadcast_apply, matmul64_apply, bias64_apply, shapeCast_self]
  rfl

/-! ## The decoder kernel's stored block at `(r, q)` -/

/-- Row `r` of the block the decoder kernel stores is the pair's score from the folded weight blocks: the three
    products are the three sums over the embeddings `e1`, `e2` and their elementwise product, the hidden layer's bias
    reads at its column, the maximum against the zero literal is the ReLU, the last product is the sum over the 64
    hidden units and the last bias reads at `q`. -/
theorem k1_pay1_apply (v0 v2 : Vec Ideal S10000x64 .bf16) (v8 v11 v14 : Vec Ideal S64x64 .f32) (v17 : Vec Ideal S64 .f32)
    (v18 : Vec Ideal S64x1 .f32) (v20 : Vec Ideal S1 .f32) (r : Fin 10000) (q : Fin 1) :
    k1_pay1 (F := Ideal) v0 v2 v8 v11 v14 v17 v18 v20 (ix2 r q)
      = decK (fun k => v0 (ix2 r k)) (fun k => v2 (ix2 r k)) v8 v11 v14 v17 v18 v20 q := by
  unfold k1_pay1
  simp only [truncf_apply, extf_apply, maximumf_apply, addf_apply, mulf_apply, broadcast_apply, matmul64_apply, matmul1_apply, bias64_apply, bias1_apply, shapeCast_self]
  rfl

end Cert.KernelIdeal.PayloadValue

end
-- ==== Proof.KEnc.lean ====
/-
  The first kernel launch, read as a value. Its grid is ten points; point `t` loads rows `10000·t … 10000·t + 9999`
  of the node features and of the neighbour sums together with the whole weight matrices and bias vectors, and writes
  back the same rows of its output. The body's arithmetic on a block of rows is the embeddings of those rows, and
  the embeddings of a block of rows are that block of rows of the embeddings of all nodes; the ten blocks cover the
  output array, so after the launch it holds the embeddings of all nodes.
-/
import proofs.«131416_j17360257810534_2_alg».proof.Proof.Gen.KernelIdeal.Frame
import proofs.«131416_j17360257810534_2_alg».proof.Proof.SpecArr
import Idealize.ShloMosaic.Lib.Pipeline.Value
import Idealize.ShloMosaic.Lib.ValueIdx
import proofs.«131416_j17360257810534_2_alg».proof.Proof.Payload

set_option maxRecDepth 16384

noncomputable section

namespace Cert.KernelIdeal.EncValue

open Cert.KernelIdeal Cert.KernelIdeal.Gen Cert.GinPair
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The encoder body's arithmetic on a block of rows is the embeddings of those rows. -/
theorem pay0_eq (x0 x1 : Vec Ideal S10000x64 .f32) (x2 : Vec Ideal S64x64 .f32) (x3 : Vec Ideal S64 .f32)
    (x4 : Vec Ideal S64x64 .f32) (x5 : Vec Ideal S64 .f32) :
    k0_pay1 (F := Ideal) x0 x1 x2 x3 x4 x5 = encArr x0 x1 x2 x3 x4 x5 := by
  funext j
  obtain ⟨r, c, rfl⟩ : ∃ (r : Fin 10000) (c : Fin 64), j = ix2 r c := ⟨j 0, j 1, eq_ix2 j⟩
  exact Cert.KernelIdeal.PayloadValue.k0_pay1_apply x0 x1 x2 x3 x4 x5 r c

/-- The grid is ten points. -/
theorem lt_ten (t : Fin cfg0.N) : t.val < 10 := by
  have h : t.val < cfg0.N := t.isLt
  have e : cfg0.N = 10 := N_0
  omega

/-- Where each window's block sits at point `t`: the two row windows and the output at row block `t`, the weights and
    biases whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The node-feature block at point `t` is rows `10000·t …` of the feature array. -/
theorem blk0_0 (c : Dev nD) (t : Fin cfg0.N) :
    iblk0 V c 0 t = rowsFrom (N := 100000) (t.val * 10000) (by have := lt_ten t; omega) (V c main_arg0) := by
  obtain ⟨e00, e01, -⟩ := idx_facts0 t
  funext y
  show V c main_arg0 (((cfg0.win 0).blk t).view.emb y) = V c main_arg0 _
  refine congrArg _ (funext fun a => Fin.ext ?_)
  match a with
  | ⟨0, _⟩ => show win0_0.index t (0 : Fin 2) * 10000 + 1 * (y 0).val = t.val * 10000 + (y 0).val; omega
  | ⟨1, _⟩ => show win0_0.index t (1 : Fin 2) * 64 + 1 * (y 1).val = (y 1).val; omega

/-- The neighbour-sum block at point `t` is rows `10000·t …` of the neighbour-sum array. -/
theorem blk0_1 (c : Dev nD) (t : Fin cfg0.N) :
    iblk0 V c 1 t = rowsFrom (N := 100000) (t.val * 10000) (by have := lt_ten t; omega) (V c main_call0_v19) := by
  obtain ⟨-, -, e10, e11, -⟩ := idx_facts0 t
  funext y
  show V c main_call0_v19 (((cfg0.win 1).blk t).view.emb y) = V c main_call0_v19 _
  refine congrArg _ (funext fun a => Fin.ext ?_)
  match a with
  | ⟨0, _⟩ => show win0_1.index t (0 : Fin 2) * 10000 + 1 * (y 0).val = t.val * 10000 + (y 0).val; omega
  | ⟨1, _⟩ => show win0_1.index t (1 : Fin 2) * 64 + 1 * (y 1).val = (y 1).val; omega

/-- The weight and bias windows hold their whole arrays at every point. -/
theorem blk0_2 (c : Dev nD) (t : Fin cfg0.N) : iblk0 V c 2 t = V c main_arg4 := by
  obtain ⟨-, -, -, -, e20, e21, -⟩ := idx_facts0 t
  funext y
  show V c main_arg4 (((cfg0.win 2).blk t).view.emb y) = V c main_arg4 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem blk0_3 (c : Dev nD) (t : Fin cfg0.N) : iblk0 V c 3 t = V c main_arg5 := by
  obtain ⟨-, -, -, -, -, -, e30, -⟩ := idx_facts0 t
  funext y
  show V c main_arg5 (((cfg0.win 3).blk t).view.emb y) = V c main_arg5 y
  refine congrArg _ (funext fun a => Fin.ext ?_)
  match a with
  | ⟨0, _⟩ => show win0_3.index t (0 : Fin 1) * 64 + 1 * (y 0).val = (y 0).val; omega
theorem blk0_4 (c : Dev nD) (t : Fin cfg0.N) : iblk0 V c 4 t = V c main_arg6 := by
  obtain ⟨-, -, -, -, -, -, -, e40, e41, -⟩ := idx_facts0 t
  funext y
  show V c main_arg6 (((cfg0.win 4).blk t).view.emb y) = V c main_arg6 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem blk0_5 (c : Dev nD) (t : Fin cfg0.N) : iblk0 V c 5 t = V c main_arg7 := by
  obtain ⟨-, -, -, -, -, -, -, -, -, e50, -⟩ := idx_facts0 t
  funext y
  show V c main_arg7 (((cfg0.win 5).blk t).view.emb y) = V c main_arg7 y
  refine congrArg _ (funext fun a => Fin.ext ?_)
  match a with
  | ⟨0, _⟩ => show win0_5.index t (0 : Fin 1) * 64 + 1 * (y 0).val = (y 0).val; omega

/-- The embeddings of all nodes, from the arrays as the first launch finds them. -/
abbrev H (c : Dev nD) : Mat 100000 64 :=
  encArr (V c main_arg0) (V c main_call0_v19) (V c main_arg4) (V c main_arg5) (V c main_arg6) (V c main_arg7)

/-- What point `t` writes back is rows `10000·t …` of the embeddings of all nodes. -/
theorem flushed0 (c : Dev nD) (t : Fin cfg0.N) :
    (dat0 (F := Ideal) V c).flushed 6 t = ((cfg0.win 6).blk t).view.read (Elt Ideal) (H V c) := by
  show (cfg0.win 6).cut (grid0.coords t) ((dat0 V c).after 6 t) = _
  rw [after0_6]
  unfold out0_6
  rw [View.canon_unit_zero hz2]
  simp only [View.ld_unit_zero (S := S10000x64) hz2, View.ld_unit_zero (S := S64x64) hz2, View.ld_unit_zero (S := S64) hz1]
  rw [pay0_eq, blk0_0, blk0_1, blk0_2, blk0_3, blk0_4, blk0_5, encArr_rows]
  obtain ⟨-, -, -, -, -, -, -, -, -, -, e60, e61⟩ := idx_facts0 t
  funext j
  show H V c _ = H V c (((cfg0.win 6).blk t).view.emb j)
  refine congrArg _ (funext fun a => Fin.ext ?_)
  match a with
  | ⟨0, _⟩ => show t.val * 10000 + (j 0).val = win0_6.index t (0 : Fin 2) * 10000 + 1 * (j 0).val; omega
  | ⟨1, _⟩ => show (j 1).val = win0_6.index t (1 : Fin 2) * 64 + 1 * (j 1).val; omega

/-- An index of the output array is in point `t`'s block iff its row is in that block's row range. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_call0_v20).slice (win0_6.rect t)).set ↔ _
  rw [View.set_slice_whole, Rect.mem_set_unit]
  exact Iff.rfl

/-- Every row block is some point's. -/
theorem idx_onto0 : ∀ q : Fin 10, ∃ t : Fin cfg0.N, win0_6.index t = ![q.val, 0] :=
  (by decide +kernel : ∀ q : Fin 10, ∃ t : Fin grid0.N, win0_6.index t = ![q.val, 0])

/-- The ten row blocks cover the output array: row `r` is in block `r / 10000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- After the first launch its output array holds the embeddings of all nodes. -/
theorem final0 (c : Dev nD) : (dat0 (F := Ideal) V c).arrAt 6 cfg0.N = H V c :=
  (dat0 (F := Ideal) V c).arrAt_eq_of_cover 6 (H V c) (fun t _ => flushed0 V c t) cover0

end Cert.KernelIdeal.EncValue

end
-- ==== Proof.KDec.lean ====
/-
  The second kernel launch, read as a value. Its grid is twenty points; point `t` loads rows `10000·t … 10000·t + 9999`
  of the two gathered embedding arrays together with the three folded weight blocks, the last layer's weights and
  the two biases whole, and writes back the same rows of its one-column output. The body's arithmetic on a block of
  pair rows is the scores of those pairs; the twenty blocks cover the output array, so after the launch it holds
  the scores of all pairs.
-/
import proofs.«131416_j17360257810534_2_alg».proof.Proof.Gen.KernelIdeal.Frame
import proofs.«131416_j17360257810534_2_alg».proof.Proof.SpecArr
import Idealize.ShloMosaic.Lib.Pipeline.Value
import Idealize.ShloMosaic.Lib.ValueIdx
import proofs.«131416_j17360257810534_2_alg».proof.Proof.Payload

set_option maxRecDepth 16384

noncomputable section

namespace Cert.KernelIdeal.DecValue

open Cert.KernelIdeal Cert.KernelIdeal.Gen Cert.GinPair
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The decoder body's arithmetic on a block of pair rows is the scores of those pairs. -/
theorem pay1_eq (x0 x1 : Vec Ideal S10000x64 .bf16) (x2 x3 x4 : Vec Ideal S64x64 .f32) (x5 : Vec Ideal S64 .f32)
    (x6 : Vec Ideal S64x1 .f32) (x7 : Vec Ideal S1 .f32) :
    k1_pay1 (F := Ideal) x0 x1 x2 x3 x4 x5 x6 x7 = decArr x0 x1 x2 x3 x4 x5 x6 x7 := by
  funext j
  obtain ⟨r, q, rfl⟩ : ∃ (r : Fin 10000) (q : Fin 1), j = ix2 r q := ⟨j 0, j 1, eq_ix2 j⟩
  exact Cert.KernelIdeal.PayloadValue.k1_pay1_apply x0 x1 x2 x3 x4 x5 x6 x7 r q

/-- The grid is twenty points. -/
theorem lt_twenty (t : Fin cfg1.N) : t.val < 20 := by
  have h : t.val < cfg1.N := t.isLt
  have e : cfg1.N = 20 := N_1
  omega

/-- Where each window's block sits at point `t`: the two embedding windows and the output at row block `t`, the
    weights and biases whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The first-embedding block at point `t` is rows `10000·t …` of the gathered first embeddings. -/
theorem blk1_0 (c : Dev nD) (t : Fin cfg1.N) :
    iblk1 V c 0 t = rowsFrom (N := 200000) (t.val * 10000) (by have := lt_twenty t; omega) (V c main_call0_v27) := by
  obtain ⟨e00, e01, -⟩ := idx_facts1 t
  funext y
  show V c main_call0_v27 (((cfg1.win 0).blk t).view.emb y) = V c main_call0_v27 _
  refine congrArg _ (funext fun a => Fin.ext ?_)
  match a with
  | ⟨0, _⟩ => show win1_0.index t (0 : Fin 2) * 10000 + 1 * (y 0).val = t.val * 10000 + (y 0).val; omega
  | ⟨1, _⟩ => show win1_0.index t (1 : Fin 2) * 64 + 1 * (y 1).val = (y 1).val; omega

/-- The second-embedding block at point `t` is rows `10000·t …` of the gathered second embeddings. -/
theorem blk1_1 (c : Dev nD) (t : Fin cfg1.N) :
    iblk1 V c 1 t = rowsFrom (N := 200000) (t.val * 10000) (by have := lt_twenty t; omega) (V c main_call0_v34) := by
  obtain ⟨-, -, e10, e11, -⟩ := idx_facts1 t
  funext y
  show V c main_call0_v34 (((cfg1.win 1).blk t).view.emb y) = V c main_call0_v34 _
  refine congrArg _ (funext fun a => Fin.ext ?_)
  match a with
  | ⟨0, _⟩ => show win1_1.index t (0 : Fin 2) * 10000 + 1 * (y 0).val = t.val * 10000 + (y 0).val; omega
  | ⟨1, _⟩ => show win1_1.index t (1 : Fin 2) * 64 + 1 * (y 1).val = (y 1).val; omega

/-- The weight and bias windows hold their whole arrays at every point. -/
theorem blk1_2 (c : Dev nD) (t : Fin cfg1.N) : iblk1 V c 2 t = V c main_call0_v39 := by
  obtain ⟨-, -, -, -, e0, e1, -⟩ := idx_facts1 t
  funext y
  show V c main_call0_v39 (((cfg1.win 2).blk t).view.emb y) = V c main_call0_v39 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem blk1_3 (c : Dev nD) (t : Fin cfg1.N) : iblk1 V c 3 t = V c main_call0_v40 := by
  obtain ⟨-, -, -, -, -, -, e0, e1, -⟩ := idx_facts1 t
  funext y
  show V c main_call0_v40 (((cfg1.win 3).blk t).view.emb y) = V c main_call0_v40 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem blk1_4 (c : Dev nD) (t : Fin cfg1.N) : iblk1 V c 4 t = V c main_call0_v36 := by
  obtain ⟨-, -, -, -, -, -, -, -, e0, e1, -⟩ := idx_facts1 t
  funext y
  show V c main_call0_v36 (((cfg1.win 4).blk t).view.emb y) = V c main_call0_v36 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem blk1_5 (c : Dev nD) (t : Fin cfg1.N) : iblk1 V c 5 t = V c main_arg9 := by
  obtain ⟨-, -, -, -, -, -, -, -, -, -, e0, -⟩ := idx_facts1 t
  funext y
  show V c main_arg9 (((cfg1.win 5).blk t).view.emb y) = V c main_arg9 y
  refine congrArg _ (funext fun a => Fin.ext ?_)
  match a with
  | ⟨0, _⟩ => show win1_5.index t (0 : Fin 1) * 64 + 1 * (y 0).val = (y 0).val; omega
theorem blk1_6 (c : Dev nD) (t : Fin cfg1.N) : iblk1 V c 6 t = V c main_arg10 := by
  obtain ⟨-, -, -, -, -, -, -, -, -, -, -, e0, e1, -⟩ := idx_facts1 t
  funext y
  show V c main_arg10 (((cfg1.win 6).blk t).view.emb y) = V c main_arg10 y
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 1 + 1 * (y 1).val = (y 1).val; omega
theorem blk1_7 (c : Dev nD) (t : Fin cfg1.N) : iblk1 V c 7 t = V c main_arg11 := by
  obtain ⟨-, -, -, -, -, -, -, -, -, -, -, -, -, e0, -⟩ := idx_facts1 t
  funext y
  show V c main_arg11 (((cfg1.win 7).blk t).view.emb y) = V c main_arg11 y
  refine congrArg _ (funext fun a => Fin.ext ?_)
  match a with
  | ⟨0, _⟩ => show win1_7.index t (0 : Fin 1) * 1 + 1 * (y 0).val = (y 0).val; omega

/-- The scores of all pairs, from the arrays as the second launch finds them. -/
abbrev Sc (c : Dev nD) : Mat 200000 1 :=
  decArr (V c main_call0_v27) (V c main_call0_v34) (V c main_call0_v39) (V c main_call0_v40) (V c main_call0_v36)
    (V c main_arg9) (V c main_arg10) (V c main_arg11)

/-- What point `t` writes back is rows `10000·t …` of the scores of all pairs. -/
theorem flushed1 (c : Dev nD) (t : Fin cfg1.N) :
    (dat1 (F := Ideal) V c).flushed 8 t = ((cfg1.win 8).blk t).view.read (Elt Ideal) (Sc V c) := by
  show (cfg1.win 8).cut (grid1.coords t) ((dat1 V c).after 8 t) = _
  rw [after1_8]
  unfold out1_8
  rw [View.canon_unit_zero hz2]
  simp only [View.ld_unit_zero (S := S10000x64) hz2, View.ld_unit_zero (S := S64x64) hz2, View.ld_unit_zero (S := S64) hz1,
    View.ld_unit_zero (S := S64x1) hz2, View.ld_unit_zero (S := S1) hz1]
  rw [pay1_eq, blk1_0, blk1_1, blk1_2, blk1_3, blk1_4, blk1_5, blk1_6, blk1_7, decArr_rows]
  obtain ⟨-, -, -, -, -, -, -, -, -, -, -, -, -, -, e80, e81⟩ := idx_facts1 t
  funext j
  show Sc V c _ = Sc V c (((cfg1.win 8).blk t).view.emb j)
  refine congrArg _ (funext fun a => Fin.ext ?_)
  match a with
  | ⟨0, _⟩ => show t.val * 10000 + (j 0).val = win1_8.index t (0 : Fin 2) * 10000 + 1 * (j 0).val; omega
  | ⟨1, _⟩ => show (j 1).val = win1_8.index t (1 : Fin 2) * 1 + 1 * (j 1).val; omega

/-- An index of the output array is in point `t`'s block iff its row is in that block's row range. -/
theorem mem_blk1 (t : Fin cfg1.N) (i : S200000x1.Idx) :
    i ∈ ((cfg1.win 8).blk t).view.set ↔ ∀ a : Fin 2, win1_8.index t a * S10000x1.size a ≤ (i a).val ∧ (i a).val < win1_8.index t a * S10000x1.size a + S10000x1.size a := by
  show i ∈ ((View.whole main_v0).slice (win1_8.rect t)).set ↔ _
  rw [View.set_slice_whole, Rect.mem_set_unit]
  exact Iff.rfl

/-- Every row block is some point's. -/
theorem idx_onto1 : ∀ q : Fin 20, ∃ t : Fin cfg1.N, win1_8.index t = ![q.val, 0] :=
  (by decide +kernel : ∀ q : Fin 20, ∃ t : Fin grid1.N, win1_8.index t = ![q.val, 0])

/-- The twenty row blocks cover the output array: row `r` is in block `r / 10000`. -/
theorem cover1 (i : S200000x1.Idx) : ∃ t : Fin cfg1.N, (cfg1.win 8).flush t = true ∧ i ∈ ((cfg1.win 8).blk t).view.set := by
  have hi0 : (i 0).val < 200000 := (i 0).isLt
  have hi1 : (i 1).val < 1 := (i 1).isLt
  obtain ⟨t, ht⟩ := idx_onto1 ⟨(i 0).val / 10000, by omega⟩
  have q0 : win1_8.index t (0 : Fin 2) = (i 0).val / 10000 := congrFun ht 0
  have q1 : win1_8.index t (1 : Fin 2) = 0 := congrFun ht 1
  refine ⟨t, flush1_8 t, ?_⟩
  rw [mem_blk1]
  intro a
  match a with
  | ⟨0, _⟩ => show win1_8.index t (0 : Fin 2) * 10000 ≤ (i 0).val ∧ (i 0).val < win1_8.index t (0 : Fin 2) * 10000 + 10000; omega
  | ⟨1, _⟩ => show win1_8.index t (1 : Fin 2) * 1 ≤ (i 1).val ∧ (i 1).val < win1_8.index t (1 : Fin 2) * 1 + 1; omega

/-- After the second launch its output array holds the scores of all pairs. -/
theorem final1 (c : Dev nD) : (dat1 (F := Ideal) V c).arrAt 8 cfg1.N = Sc V c :=
  (dat1 (F := Ideal) V c).arrAt_eq_of_cover 8 (Sc V c) (fun t _ => flushed1 V c t) cover1

end Cert.KernelIdeal.DecValue

end
-- ==== Proof.KHost.lean ====
/-
  The host operations around the two kernel launches, read as values. Before the first launch the program slices the
  edge list and the pair list into their rows, wraps negative node numbers, gathers the source nodes' features and
  adds them up per destination node: the same operations, on the same arrays, as the reference's, so each of these
  buffers holds the reference's own stage. The first launch then leaves the embeddings of all nodes; the program
  gathers the two embeddings of every pair, cuts the 256×64 weight matrix into its four 64-row blocks and adds the
  first to the third and to the fourth; the second launch leaves the scores of all pairs.
-/
import proofs.«131416_j17360257810534_2_alg».proof.Proof.Gen.KernelIdeal.Frame
import proofs.«131416_j17360257810534_2_alg».proof.Proof.Gen.ReferenceIdeal.Read
import proofs.«131416_j17360257810534_2_alg».proof.Proof.SpecArr
import Idealize.ShloMosaic.Lib.Pipeline.Value
import Idealize.ShloMosaic.Lib.ValueIdx
import Idealize.ShloMosaic.Lib.StableHlo.Run
import proofs.«131416_j17360257810534_2_alg».proof.Proof.KEnc
import proofs.«131416_j17360257810534_2_alg».proof.Proof.KDec

set_option maxRecDepth 16384

noncomputable section

namespace Cert.KernelIdeal.HostValue

open Cert.KernelIdeal Cert.KernelIdeal.Gen Cert.GinPair
open Idealize.ShloMosaic Idealize.ShloMosaic.TcCoe Idealize.ShloMosaic.ValueIdx Idealize.SL.Sem Idealize.ShloMosaic.StableHlo

/-- A 64-row slice of the 256×64 weight matrix is its row block. -/
theorem slice_block (dw1 : Mat 256 64) (o : Nat) (ho : o + 64 ≤ 256)
    (h : (⟨2, ![256, 64]⟩ : Shape).Slices ![o, 0] ⟨2, ![64, 64]⟩) :
    extractStridedSlice ⟨2, ![64, 64]⟩ ![o, 0] dw1 h = blockOf dw1 o ho := by
  funext j
  refine extractStridedSlice_apply ![o, 0] dw1 h j _ fun a => ?_
  match a with
  | ⟨0, _⟩ => rfl
  | ⟨1, _⟩ => show (j 1).val = 0 + (j 1).val; omega

variable (m : (ℓ : Loc nD τ sig) → Buf (Elt Ideal) ℓ) (ρ : Dev nD → PrngReg) (c : Dev nD)

/-! ## Before the first launch -/

theorem W1_arg0 : W1 m ρ c (Proc.devRef .tc main_arg0) = m ((c.tc : Thread nD τ).loc main_arg0) := by
  show StableHlo.after hostOps0 (W0 m ρ c) (Proc.devRef .tc main_arg0) = _
  after_results
theorem W1_arg4 : W1 m ρ c (Proc.devRef .tc main_arg4) = m ((c.tc : Thread nD τ).loc main_arg4) := by
  show StableHlo.after hostOps0 (W0 m ρ c) (Proc.devRef .tc main_arg4) = _
  after_results
theorem W1_arg5 : W1 m ρ c (Proc.devRef .tc main_arg5) = m ((c.tc : Thread nD τ).loc main_arg5) := by
  show StableHlo.after hostOps0 (W0 m ρ c) (Proc.devRef .tc main_arg5) = _
  after_results
theorem W1_arg6 : W1 m ρ c (Proc.devRef .tc main_arg6) = m ((c.tc : Thread nD τ).loc main_arg6) := by
  show StableHlo.after hostOps0 (W0 m ρ c) (Proc.devRef .tc main_arg6) = _
  after_results
theorem W1_arg7 : W1 m ρ c (Proc.devRef .tc main_arg7) = m ((c.tc : Thread nD τ).loc main_arg7) := by
  show StableHlo.after hostOps0 (W0 m ρ c) (Proc.devRef .tc main_arg7) = _
  after_results
theorem W1_arg8 : W1 m ρ c (Proc.devRef .tc main_arg8) = m ((c.tc : Thread nD τ).loc main_arg8) := by
  show StableHlo.after hostOps0 (W0 m ρ c) (Proc.devRef .tc main_arg8) = _
  after_results
theorem W1_arg9 : W1 m ρ c (Proc.devRef .tc main_arg9) = m ((c.tc : Thread nD τ).loc main_arg9) := by
  show StableHlo.after hostOps0 (W0 m ρ c) (Proc.devRef .tc main_arg9) = _
  after_results
theorem W1_arg10 : W1 m ρ c (Proc.devRef .tc main_arg10) = m ((c.tc : Thread nD τ).loc main_arg10) := by
  show StableHlo.after hostOps0 (W0 m ρ c) (Proc.devRef .tc main_arg10) = _
  after_results
theorem W1_arg11 : W1 m ρ c (Proc.devRef .tc main_arg11) = m ((c.tc : Thread nD τ).loc main_arg11) := by
  show StableHlo.after hostOps0 (W0 m ρ c) (Proc.devRef .tc main_arg11) = _
  after_results

/-- The neighbour sums: the reference's own scatter-add of the gathered source features. -/
theorem W1_v19 : W1 m ρ c (Proc.devRef .tc main_call0_v19)
    = Cert.ReferenceIdeal.Read.val_main_v14 (F := Ideal) (m ((c.tc : Thread nD τ).loc main_arg0)) (m ((c.tc : Thread nD τ).loc main_arg1)) := by
  show StableHlo.after hostOps0 (W0 m ρ c) (Proc.devRef .tc main_call0_v19) = _
  after_results
  rfl

/-- The two rows of the pair list. -/
theorem W1_v5 : W1 m ρ c (Proc.devRef .tc main_call0_v5)
    = Cert.ReferenceIdeal.Read.val_main_v32 (F := Ideal) (m ((c.tc : Thread nD τ).loc main_arg3)) := by
  show StableHlo.after hostOps0 (W0 m ρ c) (Proc.devRef .tc main_call0_v5) = _
  after_results
  rfl
theorem W1_v7 : W1 m ρ c (Proc.devRef .tc main_call0_v7)
    = Cert.ReferenceIdeal.Read.val_main_v41 (F := Ideal) (m ((c.tc : Thread nD τ).loc main_arg3)) := by
  show StableHlo.after hostOps0 (W0 m ρ c) (Proc.devRef .tc main_call0_v7) = _
  after_results
  rfl

/-! ## After the first launch -/

/-- The embeddings of all nodes, from the launch arrays. -/
abbrev HK : Mat 100000 64 :=
  encArr (m ((c.tc : Thread nD τ).loc main_arg0)) (Cert.ReferenceIdeal.Read.val_main_v14 (F := Ideal) (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7))

theorem W2_v20 : W2 m ρ c (Proc.devRef .tc main_call0_v20) = HK m c := by
  refine (W2_arr m ρ c 6).trans ((EncValue.final0 (V1 m ρ) c).trans ?_)
  show encArr (W1 m ρ c (Proc.devRef .tc main_arg0)) (W1 m ρ c (Proc.devRef .tc main_call0_v19)) (W1 m ρ c (Proc.devRef .tc main_arg4))
    (W1 m ρ c (Proc.devRef .tc main_arg5)) (W1 m ρ c (Proc.devRef .tc main_arg6)) (W1 m ρ c (Proc.devRef .tc main_arg7)) = _
  rw [W1_arg0, W1_v19, W1_arg4, W1_arg5, W1_arg6, W1_arg7]

theorem W2_v5 : W2 m ρ c (Proc.devRef .tc main_call0_v5) = Cert.ReferenceIdeal.Read.val_main_v32 (F := Ideal) (m ((c.tc : Thread nD τ).loc main_arg3)) :=
  (W2_of_ne m ρ c main_call0_v5 (by decide)).trans (W1_v5 m ρ c)
theorem W2_v7 : W2 m ρ c (Proc.devRef .tc main_call0_v7) = Cert.ReferenceIdeal.Read.val_main_v41 (F := Ideal) (m ((c.tc : Thread nD τ).loc main_arg3)) :=
  (W2_of_ne m ρ c main_call0_v7 (by decide)).trans (W1_v7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)
theorem W2_arg10 : W2 m ρ c (Proc.devRef .tc main_arg10) = m ((c.tc : Thread nD τ).loc main_arg10) :=
  (W2_of_ne m ρ c main_arg10 (by decide)).trans (W1_arg10 m ρ c)
theorem W2_arg11 : W2 m ρ c (Proc.devRef .tc main_arg11) = m ((c.tc : Thread nD τ).loc main_arg11) :=
  (W2_of_ne m ρ c main_arg11 (by decide)).trans (W1_arg11 m ρ c)

/-! ## Before the second launch -/

/-- The first embedding of every pair: the reference's gather, of the embeddings of all nodes. -/
theorem W3_v27 : W3 m ρ c (Proc.devRef .tc main_call0_v27)
    = Host.gather Cert.ReferenceIdeal.gather_S100000x64_S200000x1_S200000x64_1_0_n_n_0_1_164 (HK m c)
        (Cert.ReferenceIdeal.Read.val_main_v38 (F := Ideal) (m ((c.tc : Thread nD τ).loc main_arg3))) := by
  show StableHlo.after hostOps1 (W2 m ρ c) (Proc.devRef .tc main_call0_v27) = _
  after_results
  rw [W2_v20, W2_v5]
  rfl
/-- The second embedding of every pair. -/
theorem W3_v34 : W3 m ρ c (Proc.devRef .tc main_call0_v34)
    = Host.gather Cert.ReferenceIdeal.gather_S100000x64_S200000x1_S200000x64_1_0_n_n_0_1_164 (HK m c)
        (Cert.ReferenceIdeal.Read.val_main_v47 (F := Ideal) (m ((c.tc : Thread nD τ).loc main_arg3))) := by
  show StableHlo.after hostOps1 (W2 m ρ c) (Proc.devRef .tc main_call0_v34) = _
  after_results
  rw [W2_v20, W2_v7]
  rfl

/-- The folded weight blocks. -/
theorem W3_v39 : W3 m ρ c (Proc.devRef .tc main_call0_v39) = foldAC (m ((c.tc : Thread nD τ).loc main_arg8)) := by
  show StableHlo.after hostOps1 (W2 m ρ c) (Proc.devRef .tc main_call0_v39) = _
  after_results
  rw [W2_arg8]
  exact congrArg₂ (fun a b : Mat 64 64 => fun i => a i + b i) (slice_block (m ((c.tc : Thread nD τ).loc main_arg8)) 0 (by omega) Facts₀.slices_S256x64_S64x64_0_0)
    (slice_block (m ((c.tc : Thread nD τ).loc main_arg8)) 128 (by omega) Facts₀.slices_S256x64_S64x64_128_0)
theorem W3_v40 : W3 m ρ c (Proc.devRef .tc main_call0_v40) = foldAD (m ((c.tc : Thread nD τ).loc main_arg8)) := by
  show StableHlo.after hostOps1 (W2 m ρ c) (Proc.devRef .tc main_call0_v40) = _
  after_results
  rw [W2_arg8]
  exact congrArg₂ (fun a b : Mat 64 64 => fun i => a i + b i) (slice_block (m ((c.tc : Thread nD τ).loc main_arg8)) 0 (by omega) Facts₀.slices_S256x64_S64x64_0_0)
    (slice_block (m ((c.tc : Thread nD τ).loc main_arg8)) 192 (by omega) Facts₀.slices_S256x64_S64x64_192_0)
theorem W3_v36 : W3 m ρ c (Proc.devRef .tc main_call0_v36) = blockB (m ((c.tc : Thread nD τ).loc main_arg8)) := by
  show StableHlo.after hostOps1 (W2 m ρ c) (Proc.devRef .tc main_call0_v36) = _
  after_results
  rw [W2_arg8]
  exact slice_block (m ((c.tc : Thread nD τ).loc main_arg8)) 64 (by omega) Facts₀.slices_S256x64_S64x64_64_0
theorem W3_arg9 : W3 m ρ c (Proc.devRef .tc main_arg9) = m ((c.tc : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c.tc : Thread nD τ).loc main_arg10) := by
  show StableHlo.after hostOps1 (W2 m ρ c) (Proc.devRef .tc main_arg10) = _
  after_results
  exact W2_arg10 m ρ c
theorem W3_arg11 : W3 m ρ c (Proc.devRef .tc main_arg11) = m ((c.tc : Thread nD τ).loc main_arg11) := by
  show StableHlo.after hostOps1 (W2 m ρ c) (Proc.devRef .tc main_arg11) = _
  after_results
  exact W2_arg11 m ρ c

/-! ## After the second launch -/

/-- The scores of all pairs, from the launch arrays: the kernel's arithmetic on the two gathered embeddings and the
    folded weight blocks. -/
abbrev Scores : Mat 200000 1 :=
  decArr (Host.gather Cert.ReferenceIdeal.gather_S100000x64_S200000x1_S200000x64_1_0_n_n_0_1_164 (HK m c)
          (Cert.ReferenceIdeal.Read.val_main_v38 (F := Ideal) (m ((c.tc : Thread nD τ).loc main_arg3))))
        (Host.gather Cert.ReferenceIdeal.gather_S100000x64_S200000x1_S200000x64_1_0_n_n_0_1_164 (HK m c)
          (Cert.ReferenceIdeal.Read.val_main_v47 (F := Ideal) (m ((c.tc : Thread nD τ).loc main_arg3))))
        (foldAC (m ((c.tc : Thread nD τ).loc main_arg8))) (foldAD (m ((c.tc : Thread nD τ).loc main_arg8))) (blockB (m ((c.tc : Thread nD τ).loc main_arg8))) (m ((c.tc : Thread nD τ).loc main_arg9)) (m ((c.tc : Thread nD τ).loc main_arg10)) (m ((c.tc : Thread nD τ).loc main_arg11))

/-- The result buffer holds the scores of all pairs. -/
theorem result_eq : W4 m ρ c (Proc.devRef .tc main_v0) = Scores m c := by
  refine (W4_arr m ρ c 8).trans ((DecValue.final1 (V3 m ρ) c).trans ?_)
  show decArr (W3 m ρ c (Proc.devRef .tc main_call0_v27)) (W3 m ρ c (Proc.devRef .tc main_call0_v34))
    (W3 m ρ c (Proc.devRef .tc main_call0_v39)) (W3 m ρ c (Proc.devRef .tc main_call0_v40)) (W3 m ρ c (Proc.devRef .tc main_call0_v36))
    (W3 m ρ c (Proc.devRef .tc main_arg9)) (W3 m ρ c (Proc.devRef .tc main_arg10)) (W3 m ρ c (Proc.devRef .tc main_arg11)) = _
  rw [W3_v27, W3_v34, W3_v39, W3_v40, W3_v36, W3_arg9, W3_arg10, W3_arg11]

end Cert.KernelIdeal.HostValue

end
-- ==== Proof.Finite.lean ====
/-
  The printed precondition says of every float input that all its elements satisfy |x| < +∞. An extended real with
  |x| < +∞ is neither +∞ nor −∞, hence a real number. The precondition is a conjunction (a chain of `and`s of one-bit
  words) of ten such "all elements" statements, each a reduction by `and` of the elementwise comparison; a reduction
  by `and` that came out 1 met a 1 at every element.
-/
import proofs.«131416_j17360257810534_2_alg».proof.Proof.Spec
import proofs.«131416_j17360257810534_2_alg».proof.Pre_finite_inputs
import Idealize.ShloMosaic.Lib.ReduceAll
import Idealize.ShloMosaic.PureOps.Ideal.Laws

noncomputable section

namespace Cert.GinPair

open Idealize.ShloMosaic Idealize.ShloMosaic.ValueIdx

/-- The rank-0 shape has one index. -/
instance : Subsingleton Cert.Pre_finite_inputs.S_.Idx := ⟨fun a b => funext fun d => d.elim0⟩

/-- The bit pattern `0x7F800000` denotes `+∞`. -/
theorem inf_eq_top : Ideal.ofBits .f32 0x7F800000#32 = (⊤ : EReal) := by simp [Ideal.ofBits, Ideal.ieee]

/-- An extended real whose absolute value `max x (−x)` is below `+∞` is a real number. -/
theorem isReal_of_abs_lt_top (x : EReal) (h : max x (-x) < ⊤) : IsReal x := by
  induction x using EReal.rec with
  | bot => simp at h
  | coe r => exact ⟨r, rfl⟩
  | top => simp at h

/-- The one-bit word of the comparison `|x| < +∞` being 1 says that `x` is a real number. -/
theorem isReal_of_cmp (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [inf_eq_top] at h'
  unfold Ideal.cmp at h'
  by_cases hlt : max (x : EReal) (-(x : EReal)) < ⊤
  · exact isReal_of_abs_lt_top x hlt
  · simp [hlt] at h'

/-- "All elements of `a` have `|a i| < +∞`", as the printed program spells it over any shape, gives that every
    element of `a` is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) :
    ∀ i, IsReal (a i) := fun i =>
  isReal_of_cmp (a i) (Host.reduce_andi_all _ _ hr hu ix0 e i)

open Cert.Pre_finite_inputs in
/-- The printed precondition, decoded: every float input the proof reads is real at every index. -/
theorem real_of_pre [Cert.Pre_finite_inputs.Facts]
    (a0 : FVec Ideal Cert.Pre_finite_inputs.S100000x64 .f32) (a1 : IVec Cert.Pre_finite_inputs.S2x1600000 32)
    (a2 : FVec Ideal Cert.Pre_finite_inputs.S1600000 .f32) (a3 : IVec Cert.Pre_finite_inputs.S2x200000 32)
    (a4 : FVec Ideal Cert.Pre_finite_inputs.S64x64 .f32) (a5 : FVec Ideal Cert.Pre_finite_inputs.S64 .f32)
    (a6 : FVec Ideal Cert.Pre_finite_inputs.S64x64 .f32) (a7 : FVec Ideal Cert.Pre_finite_inputs.S64 .f32)
    (a8 : FVec Ideal Cert.Pre_finite_inputs.S256x64 .f32) (a9 : FVec Ideal Cert.Pre_finite_inputs.S64 .f32)
    (a10 : FVec Ideal Cert.Pre_finite_inputs.S64x1 .f32) (a11 : FVec Ideal Cert.Pre_finite_inputs.S1 .f32)
    (h : Cert.Pre_finite_inputs.fn (F := Ideal) a0 a1 a2 a3 a4 a5 a6 a7 a8 a9 a10 a11 = fun _ => 1#1) :
    (∀ i, IsReal (a0 i)) ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e2⟩, e4⟩, e5⟩, e6⟩, e7⟩, e8⟩, e9⟩, e10⟩, e11⟩ := h0
  exact ⟨real_of_all a0 _ _ _ e0, real_of_all a4 _ _ _ e4, real_of_all a5 _ _ _ e5, real_of_all a6 _ _ _ e6,
    real_of_all a7 _ _ _ e7, real_of_all a8 _ _ _ e8, real_of_all a9 _ _ _ e9, real_of_all a10 _ _ _ e10,
    real_of_all a11 _ _ _ e11⟩

end Cert.GinPair

end
-- ==== Proof.RefValue.lean ====
/-
  The reference's value, read at an index, in the vocabulary of the specification.

  A node's embedding: the reference adds the node's features once to the neighbour sum, then once more scaled by the
  literal one, which is the encoder input `1·x + (s + x)`; two dense layers with a ReLU each follow, and read at
  row `r`, column `c` they are `enc` of that row of encoder inputs. A pair's score: the 256 features are the four
  64-wide pieces `e1 + e2`, `e1 * e2`, `e1`, `e2` laid side by side, so the feature at position `k` is the piece that
  holds `k` at `k` less the widths before it; a dense layer over them, a ReLU and the last 64×1 layer are `decR`.
-/
import proofs.«131416_j17360257810534_2_alg».proof.Proof.Spec
import proofs.«131416_j17360257810534_2_alg».proof.Proof.Gen.ReferenceIdeal.Read

noncomputable section

namespace Cert.ReferenceIdeal.RefValue

open Cert.ReferenceIdeal Cert.ReferenceIdeal.Read Cert.GinPair Idealize.ShloMosaic Idealize.ShloMosaic.ValueIdx

/-! ## Index equations: the composed index functions of the dense layers are `ix1` / `ix2` of coordinates -/

/-- The left operand of a node-side product is read at row `r`, column `k`. -/
theorem lidx19_eq (r : Fin 100000) (c k : Fin 64) : lidx_main_v19 (ix2 r c) k = ix2 r k :=
  funext fun a => Fin.ext (by match a with | ⟨0, _⟩ => rfl | ⟨1, _⟩ => rfl)
/-- The weight of a node-side product is read at row `k`, column `c`. -/
theorem ridx19_eq (r : Fin 100000) (c k : Fin 64) : ridx_main_v19 (ix2 r c) k = ix2 k c :=
  funext fun a => Fin.ext (by match a with | ⟨0, _⟩ => rfl | ⟨1, _⟩ => rfl)
/-- The bias of a node-side layer, broadcast over the rows, is read at column `c`. -/
theorem bidx21_eq (r : Fin 100000) (c : Fin 64) : idx_main_v20 (idx_main_v21 (ix2 r c)) = ix1 c :=
  funext fun a => Fin.ext (by match a with | ⟨0, _⟩ => rfl)

/-! ## A node's embedding -/

/-- The encoder input at row `r`, column `l`: `1·x + (s + x)`, `s` the scattered neighbour sum. -/
theorem v18_apply (x0 : FVec Ideal S100000x64 .f32) (x1 : IVec S2x1600000 32) (r : Fin 100000) (l : Fin 64) :
    val_main_v18 (F := Ideal) x0 x1 (ix2 r l)
      = hinR (x0 (ix2 r l)) (val_main_v14 (F := Ideal) x0 x1 (ix2 r l)) := by
  rw [val_main_v18_apply, val_main_v17_apply, val_main_v15_apply, val_main_v16_apply, val_main_cst_1_apply]
  rfl

/-- The hidden layer at row `r`, column `j`: one dense layer and its ReLU over the row of encoder inputs. -/
theorem v24_apply (x0 : FVec Ideal S100000x64 .f32) (x1 : IVec S2x1600000 32) (x4 : FVec Ideal S64x64 .f32)
    (x5 : FVec Ideal S64 .f32) (r : Fin 100000) (j : Fin 64) :
    val_main_v24 (F := Ideal) x0 x1 x4 x5 (ix2 r j)
      = dense (fun l => hinR (x0 (ix2 r l)) (val_main_v14 (F := Ideal) x0 x1 (ix2 r l))) x4 x5 j := by
  rw [val_main_v24_apply, val_main_v22_apply, val_main_v19_apply, val_main_v21_apply, val_main_v20_apply,
    val_main_v23_apply, val_main_cst_2_apply, bidx21_eq]
  simp only [lidx19_eq, ridx19_eq, v18_apply]
  rfl

/-- **A node's embedding** at row `r`, column `c`: the two dense layers over the row of encoder inputs. -/
theorem h_apply (x0 : FVec Ideal S100000x64 .f32) (x1 : IVec S2x1600000 32) (x4 : FVec Ideal S64x64 .f32) (x5 : FVec Ideal S64 .f32)
    (x6 : FVec Ideal S64x64 .f32) (x7 : FVec Ideal S64 .f32) (r : Fin 100000) (c : Fin 64) :
    val_main_v30 (F := Ideal) x0 x1 x4 x5 x6 x7 (ix2 r c)
      = enc (fun l => hinR (x0 (ix2 r l)) (val_main_v14 (F := Ideal) x0 x1 (ix2 r l))) x4 x5 x6 x7 c := by
  rw [val_main_v30_apply, val_main_v28_apply, val_main_v25_apply, val_main_v27_apply, val_main_v26_apply,
    val_main_v29_apply, val_main_cst_3_apply]
  have hb : idx_main_v26 (idx_main_v27 (ix2 r c)) = ix1 c :=
    funext fun a => Fin.ext (by match a with | ⟨0, _⟩ => rfl)
  have hl : ∀ k : Fin 64, lidx_main_v25 (ix2 r c) k = ix2 r k := fun k =>
    funext fun a => Fin.ext (by match a with | ⟨0, _⟩ => rfl | ⟨1, _⟩ => rfl)
  have hr : ∀ k : Fin 64, ridx_main_v25 (ix2 r c) k = ix2 k c := fun k =>
    funext fun a => Fin.ext (by match a with | ⟨0, _⟩ => rfl | ⟨1, _⟩ => rfl)
  rw [hb]
  simp only [hl, hr, v24_apply]
  rfl

/-! ## A pair's score -/

/-- **The 256 pair features.** The four 64-wide pieces `e1 + e2`, `e1 * e2`, `e1`, `e2` laid side by side along the
    columns, read at row `p`, column `k`: the piece whose span holds `k`, at `k` less the widths before it. -/
theorem concat4_apply (e1 e2 : FVec Ideal S200000x64 .f32)
    (h : Shape.Concatenates [S200000x64, S200000x64, S200000x64, S200000x64] S200000x256 1)
    (p : Fin 200000) (k : Fin 256) :
    concatenate S200000x256 1 [⟨S200000x64, addf e1 e2⟩, ⟨S200000x64, mulf e1 e2⟩, ⟨S200000x64, e1⟩, ⟨S200000x64, e2⟩] h (ix2 p k)
      = feat (fun k' => e1 (ix2 p k')) (fun k' => e2 (ix2 p k')) k := by
  -- off the joined axis a piece's index has the row of the whole's
  have hoff : ∀ (c : Fin 64) (b : Fin S200000x64.rank),
      b.cast (rfl : S200000x64.rank = S200000x256.rank) ≠ (1 : Fin S200000x256.rank) →
      ((ix2 p c : S200000x64.Idx) b).val = ((ix2 p k : S200000x256.Idx) (b.cast rfl)).val := fun c b hb => by
    match b with
    | ⟨0, _⟩ => rfl
    | ⟨1, _⟩ => exact absurd (Fin.ext rfl) hb
  unfold feat
  by_cases h0 : k.val < 64
  · rw [dif_pos h0]
    exact concatenate_apply_piece 1
      [⟨S200000x64, addf e1 e2⟩, ⟨S200000x64, mulf e1 e2⟩, ⟨S200000x64, e1⟩, ⟨S200000x64, e2⟩] h (ix2 p k)
      0 (by show 0 < 4; omega) S200000x64 (addf e1 e2) rfl rfl 0 rfl (ix2 p ⟨k.val, h0⟩) (hoff _)
      (by show 0 + k.val = k.val; omega)
  · rw [dif_neg h0]
    by_cases h1 : k.val < 128
    · rw [dif_pos h1]
      exact concatenate_apply_piece 1
        [⟨S200000x64, addf e1 e2⟩, ⟨S200000x64, mulf e1 e2⟩, ⟨S200000x64, e1⟩, ⟨S200000x64, e2⟩] h (ix2 p k)
        1 (by show 1 < 4; omega) S200000x64 (mulf e1 e2) rfl rfl 64 rfl (ix2 p ⟨k.val - 64, by omega⟩) (hoff _)
        (by show 64 + (k.val - 64) = k.val; omega)
    · rw [dif_neg h1]
      by_cases h2 : k.val < 192
      · rw [dif_pos h2]
        exact concatenate_apply_piece 1
          [⟨S200000x64, addf e1 e2⟩, ⟨S200000x64, mulf e1 e2⟩, ⟨S200000x64, e1⟩, ⟨S200000x64, e2⟩] h (ix2 p k)
          2 (by show 2 < 4; omega) S200000x64 e1 rfl rfl 128 rfl (ix2 p ⟨k.val - 128, by omega⟩) (hoff _)
          (by show 128 + (k.val - 128) = k.val; omega)
      · rw [dif_neg h2]
        have hk : k.val < 256 := k.isLt
        exact concatenate_apply_piece 1
          [⟨S200000x64, addf e1 e2⟩, ⟨S200000x64, mulf e1 e2⟩, ⟨S200000x64, e1⟩, ⟨S200000x64, e2⟩] h (ix2 p k)
          3 (by show 3 < 4; omega) S200000x64 e2 rfl rfl 192 rfl (ix2 p ⟨k.val - 192, by omega⟩) (hoff _)
          (by show 192 + (k.val - 192) = k.val; omega)

/-- The reference's feature array at row `p`, column `k`, from the two gathered embedding rows. -/
theorem v51_apply (x0 : FVec Ideal S100000x64 .f32) (x1 : IVec S2x1600000 32) (x3 : IVec S2x200000 32) (x4 : FVec Ideal S64x64 .f32)
    (x5 : FVec Ideal S64 .f32) (x6 : FVec Ideal S64x64 .f32) (x7 : FVec Ideal S64 .f32) (p : Fin 200000) (k : Fin 256) :
    val_main_v51 (F := Ideal) x0 x1 x3 x4 x5 x6 x7 (ix2 p k)
      = feat (fun k' => val_main_v39 (F := Ideal) x0 x1 x3 x4 x5 x6 x7 (ix2 p k'))
             (fun k' => val_main_v48 (F := Ideal) x0 x1 x3 x4 x5 x6 x7 (ix2 p k')) k := by
  unfold val_main_v51 val_main_v49 val_main_v50
  exact concat4_apply _ _ _ p k

/-- The decoder's hidden layer at row `p`, column `j`: the dense layer over the 256 features, and its ReLU. -/
theorem v57_apply (x0 : FVec Ideal S100000x64 .f32) (x1 : IVec S2x1600000 32) (x3 : IVec S2x200000 32) (x4 : FVec Ideal S64x64 .f32)
    (x5 : FVec Ideal S64 .f32) (x6 : FVec Ideal S64x64 .f32) (x7 : FVec Ideal S64 .f32) (x8 : FVec Ideal S256x64 .f32)
    (x9 : FVec Ideal S64 .f32) (p : Fin 200000) (j : Fin 64) :
    val_main_v57 (F := Ideal) x0 x1 x3 x4 x5 x6 x7 x8 x9 (ix2 p j)
      = max ((∑ k : Fin 256, feat (fun k' => val_main_v39 (F := Ideal) x0 x1 x3 x4 x5 x6 x7 (ix2 p k'))
               (fun k' => val_main_v48 (F := Ideal) x0 x1 x3 x4 x5 x6 x7 (ix2 p k')) k * x8 (ix2 k j)) + x9 (ix1 j)) zeroLit := by
  rw [val_main_v57_apply, val_main_v55_apply, val_main_v52_apply, val_main_v54_apply, val_main_v53_apply,
    val_main_v56_apply, val_main_cst_8_apply]
  have hb : idx_main_v53 (idx_main_v54 (ix2 p j)) = ix1 j :=
    funext fun a => Fin.ext (by match a with | ⟨0, _⟩ => rfl)
  have hl : ∀ k : Fin 256, lidx_main_v52 (ix2 p j) k = ix2 p k := fun k =>
    funext fun a => Fin.ext (by match a with | ⟨0, _⟩ => rfl | ⟨1, _⟩ => rfl)
  have hr : ∀ k : Fin 256, ridx_main_v52 (ix2 p j) k = ix2 k j := fun k =>
    funext fun a => Fin.ext (by match a with | ⟨0, _⟩ => rfl | ⟨1, _⟩ => rfl)
  rw [hb]
  simp only [hl, hr, v51_apply]
  rfl

/-- **A pair's score** at row `p`: `decR` of the two gathered embedding rows. -/
theorem out_apply (x0 : FVec Ideal S100000x64 .f32) (x1 : IVec S2x1600000 32) (x3 : IVec S2x200000 32) (x4 : FVec Ideal S64x64 .f32)
    (x5 : FVec Ideal S64 .f32) (x6 : FVec Ideal S64x64 .f32) (x7 : FVec Ideal S64 .f32) (x8 : FVec Ideal S256x64 .f32)
    (x9 : FVec Ideal S64 .f32) (x10 : FVec Ideal S64x1 .f32) (x11 : FVec Ideal S1 .f32) (p : Fin 200000) (q : Fin 1) :
    val_main_v61 (F := Ideal) x0 x1 x3 x4 x5 x6 x7 x8 x9 x10 x11 (ix2 p q)
      = decR (fun k => val_main_v39 (F := Ideal) x0 x1 x3 x4 x5 x6 x7 (ix2 p k))
             (fun k => val_main_v48 (F := Ideal) x0 x1 x3 x4 x5 x6 x7 (ix2 p k)) x8 x9 x10 x11 q := by
  rw [val_main_v61_apply, val_main_v58_apply, val_main_v60_apply, val_main_v59_apply]
  have hb : idx_main_v59 (idx_main_v60 (ix2 p q)) = ix1 q :=
    funext fun a => Fin.ext (by
      match a with
      | ⟨0, _⟩ => have hq : q.val < 1 := q.isLt; show 0 = q.val; omega)
  have hl : ∀ k : Fin 64, lidx_main_v58 (ix2 p q) k = ix2 p k := fun k =>
    funext fun a => Fin.ext (by match a with | ⟨0, _⟩ => rfl | ⟨1, _⟩ => rfl)
  have hr : ∀ k : Fin 64, ridx_main_v58 (ix2 p q) k = ix2 k q := fun k =>
    funext fun a => Fin.ext (by match a with | ⟨0, _⟩ => rfl | ⟨1, _⟩ => rfl)
  rw [hb]
  simp only [hl, hr, v57_apply]
  rfl

end Cert.ReferenceIdeal.RefValue

end
-- ==== Proof.Law.lean ====
/-
  Finiteness and the two algebraic identities behind the certificate, on the extended reals.

  An extended real is *real* when it is the coercion of a real number. Sums, products and maxima of reals are
  real, so every number a dense layer produces from real inputs and real weights is real. On reals the
  extended reals' arithmetic is the real numbers', and the two identities hold:
  `1·x + (s + x) = 2·x + s` (only `x` need be real: addition is associative and commutative everywhere), and
  the folded-block form of the pair score equals the 256-feature form (distributivity, which needs every
  factor real).
-/
import proofs.«131416_j17360257810534_2_alg».proof.Proof.Spec

noncomputable section

namespace Cert.GinPair

open Idealize.ShloMosaic Idealize.ShloMosaic.ValueIdx

/-! ## Real extended reals are closed under the arithmetic -/

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type*} (s : Finset ι) (f : ι → EReal) (h : ∀ i ∈ s, IsReal (f i)) :
    IsReal (∑ i ∈ s, f i) :=
  Finset.sum_induction f IsReal (fun _ _ ha hb => ha.add hb) ⟨0, rfl⟩ h

/-! ## The three literals -/

theorem zeroLit_eq : zeroLit = 0 := by
  simp [Ideal.ofBits, Ideal.ieee]

theorem oneLit_eq : oneLit = ((1 : ℝ) : EReal) := by
  simp [Ideal.ofBits, Ideal.ieee, -EReal.coe_mul]; norm_num

theorem twoLit_eq : twoLit = ((2 : ℝ) : EReal) := by
  simp [Ideal.ofBits, Ideal.ieee, -EReal.coe_mul]; norm_num

theorem isReal_zeroLit : IsReal zeroLit := ⟨0, zeroLit_eq⟩

/-! ## The encoder input: `1·x + (s + x) = 2·x + s` -/

theorem hin_eq {x : EReal} (s : EReal) (hx : IsReal x) : hinR x s = hinK x s := by
  obtain ⟨r, rfl⟩ := hx
  have h2 : ((2 : ℝ) : EReal) * (r : EReal) = (r : EReal) + (r : EReal) := by
    rw [← EReal.coe_mul, ← EReal.coe_add, two_mul]
  have h1 : ((1 : ℝ) : EReal) * (r : EReal) = (r : EReal) := by
    rw [← EReal.coe_mul, one_mul]
  unfold hinR hinK
  rw [oneLit_eq, twoLit_eq, h1, h2, add_comm s, ← add_assoc]

theorem isReal_hinK {x s : EReal} (hx : IsReal x) (hs : IsReal s) : IsReal (hinK x s) :=
  ((twoLit_eq ▸ isReal_coe 2 : IsReal twoLit).mul hx).add hs

/-! ## Dense layers keep reals real -/

theorem isReal_dense {K N : Nat} (u : Fin K → EReal) (w : Mat K N) (b : Vc N) (j : Fin N)
    (hu : ∀ k, IsReal (u k)) (hw : ∀ i, IsReal (w i)) (hb : ∀ i, IsReal (b i)) : IsReal (dense u w b j) :=
  (((isReal_sum _ _ fun k _ => (hu k).mul (hw _)).add (hb _)).max isReal_zeroLit)

theorem isReal_enc (u : Fin 64 → EReal) (w1 : Mat 64 64) (b1 : Vc 64) (w2 : Mat 64 64) (b2 : Vc 64) (j : Fin 64)
    (hu : ∀ k, IsReal (u k)) (hw1 : ∀ i, IsReal (w1 i)) (hb1 : ∀ i, IsReal (b1 i)) (hw2 : ∀ i, IsReal (w2 i))
    (hb2 : ∀ i, IsReal (b2 i)) : IsReal (enc u w1 b1 w2 b2 j) :=
  isReal_dense (dense u w1 b1) w2 b2 j (fun k => isReal_dense u w1 b1 k hu hw1 hb1) hw2 hb2

/-! ## The pair score: folded blocks against the 256 features -/

/-- A sum over 256 indices is the sum of its four quarters of 64. -/
private theorem sum_quarters {M : Type*} [AddCommMonoid M] (f : Fin 256 → M) :
    ∑ k : Fin 256, f k =
      ((∑ k : Fin 64, f ⟨0 + k.val, by omega⟩) + (∑ k : Fin 64, f ⟨64 + k.val, by omega⟩))
        + ((∑ k : Fin 64, f ⟨128 + k.val, by omega⟩) + (∑ k : Fin 64, f ⟨192 + k.val, by omega⟩)) := by
  have e : ∑ k : Fin 256, f k = ∑ k : Fin ((64 + 64) + (64 + 64)), f k := rfl
  rw [e, Fin.sum_univ_add, Fin.sum_univ_add, Fin.sum_univ_add]
  congr 2 <;>
    exact Finset.sum_congr rfl fun k _ => congrArg f (Fin.ext (by
      simp only [Fin.coe_castAdd, Fin.coe_natAdd]; omega))

/-- The features on the first quarter are `e1 + e2` … -/
private theorem feat_q0 (e1 e2 : Fin 64 → EReal) (k : Fin 64) (h : 0 + k.val < 256) :
    feat e1 e2 ⟨0 + k.val, h⟩ = e1 k + e2 k := by
  have hk := k.isLt
  have hx : (⟨0 + k.val, by omega⟩ : Fin 64) = k := Fin.ext (by simp)
  unfold feat
  dsimp only
  split_ifs <;> first | omega | rw [hx]

/-- … on the second `e1 * e2` … -/
private theorem feat_q1 (e1 e2 : Fin 64 → EReal) (k : Fin 64) (h : 64 + k.val < 256) :
    feat e1 e2 ⟨64 + k.val, h⟩ = e1 k * e2 k := by
  have hk := k.isLt
  have hx : (⟨64 + k.val - 64, by omega⟩ : Fin 64) = k := Fin.ext (by simp)
  unfold feat
  dsimp only
  split_ifs <;> first | omega | rw [hx]

/-- … on the third `e1` … -/
private theorem feat_q2 (e1 e2 : Fin 64 → EReal) (k : Fin 64) (h : 128 + k.val < 256) :
    feat e1 e2 ⟨128 + k.val, h⟩ = e1 k := by
  have hk := k.isLt
  have hx : (⟨128 + k.val - 128, by omega⟩ : Fin 64) = k := Fin.ext (by simp)
  unfold feat
  dsimp only
  split_ifs <;> first | omega | rw [hx]

/-- … and on the fourth `e2`. -/
private theorem feat_q3 (e1 e2 : Fin 64 → EReal) (k : Fin 64) (h : 192 + k.val < 256) :
    feat e1 e2 ⟨192 + k.val, h⟩ = e2 k := by
  have hk := k.isLt
  have hx : (⟨192 + k.val - 192, by omega⟩ : Fin 64) = k := Fin.ext (by simp)
  unfold feat
  dsimp only
  split_ifs <;> first | omega | rw [hx]

/-- A row block read at row `k`, column `j` is the matrix at row `o + k`. -/
private theorem blockOf_ix2 (dw1 : Mat 256 64) (o : Nat) (ho : o + 64 ≤ 256) (k j : Fin 64) :
    blockOf dw1 o ho (ix2 k j) = dw1 (ix2 ⟨o + k.val, by have := k.isLt; omega⟩ j) := rfl

/-- Distributivity for one row `k`: with every number real,
    `a (p + c) + b (p + d) + (a b) q = ((a + b) p + (a b) q) + (a c + b d)`. -/
private theorem term_eq {a b p q c d : EReal} (ha : IsReal a) (hb : IsReal b) (hp : IsReal p) (hq : IsReal q)
    (hc : IsReal c) (hd : IsReal d) :
    a * (p + c) + b * (p + d) + (a * b) * q = ((a + b) * p + (a * b) * q) + (a * c + b * d) := by
  obtain ⟨a, rfl⟩ := ha
  obtain ⟨b, rfl⟩ := hb
  obtain ⟨p, rfl⟩ := hp
  obtain ⟨q, rfl⟩ := hq
  obtain ⟨c, rfl⟩ := hc
  obtain ⟨d, rfl⟩ := hd
  simp only [← EReal.coe_mul, ← EReal.coe_add]
  congr 1
  ring

/-- The two forms of the first decoder layer's pre-activation agree at every output column. -/
private theorem inner_eq (e1 e2 : Fin 64 → EReal) (dw1 : Mat 256 64) (j : Fin 64)
    (h1 : ∀ k, IsReal (e1 k)) (h2 : ∀ k, IsReal (e2 k)) (hw : ∀ i, IsReal (dw1 i)) :
    ((∑ k : Fin 64, e1 k * foldAC dw1 (ix2 k j)) + (∑ k : Fin 64, e2 k * foldAD dw1 (ix2 k j)))
      + (∑ k : Fin 64, (e1 k * e2 k) * blockB dw1 (ix2 k j))
    = ∑ k : Fin 256, feat e1 e2 k * dw1 (ix2 k j) := by
  rw [sum_quarters (fun k => feat e1 e2 k * dw1 (ix2 k j))]
  simp only [feat_q0, feat_q1, feat_q2, feat_q3]
  unfold foldAC foldAD blockB
  simp only [blockOf_ix2]
  simp only [← Finset.sum_add_distrib]
  exact Finset.sum_congr rfl fun k _ => term_eq (h1 k) (h2 k) (hw _) (hw _) (hw _) (hw _)

theorem dec_eq (e1 e2 : Fin 64 → EReal) (dw1 : Mat 256 64) (db1 : Vc 64) (dw2 : Mat 64 1) (db2 : Vc 1) (q : Fin 1)
    (h1 : ∀ k, IsReal (e1 k)) (h2 : ∀ k, IsReal (e2 k)) (hw : ∀ i, IsReal (dw1 i)) :
    decK e1 e2 (foldAC dw1) (foldAD dw1) (blockB dw1) db1 dw2 db2 q = decR e1 e2 dw1 db1 dw2 db2 q := by
  unfold decK decR
  congr 1
  refine Finset.sum_congr rfl fun j _ => ?_
  rw [inner_eq e1 e2 dw1 j h1 h2 hw]

end Cert.GinPair

end
-- ==== Proof.RefBridge.lean ====
/-
  The reference in the kernel's vocabulary, for inputs that are real numbers.

  The neighbour sum of a node is the zero literal plus a finite sum of entries of the feature array, so it is real
  when the features are. With a real feature `x` the reference's encoder input `1·x + (s + x)` is the kernel's
  `2·x + s`, so the reference's embeddings are `encArr` of the features and the neighbour sums, and they are real
  when the weights are. Each gathered row of a query pair is a row of embeddings, hence real, and on real rows
  and real weights the 256-feature score is the folded-block score: the reference's result is `decArr` of the two
  gathered arrays against the folded blocks.
-/
import proofs.«131416_j17360257810534_2_alg».proof.Proof.RefValue
import proofs.«131416_j17360257810534_2_alg».proof.Proof.Law
import proofs.«131416_j17360257810534_2_alg».proof.Proof.SpecArr

noncomputable section

namespace Cert.ReferenceIdeal.RefValue

open Cert.ReferenceIdeal Cert.ReferenceIdeal.Read Cert.GinPair Idealize.ShloMosaic Idealize.ShloMosaic.ValueIdx

/-- An accumulating scatter of real updates into a real operand is real: each element is the operand's plus a finite
    sum of updates. -/
theorem isReal_scatterAdd {s si su : Shape} {φ : FTy} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd (F := Ideal) d x idx upd i) :=
  IsReal.add (hx i) (isReal_sum _ _ fun j _ => hu j)

/-- A gather of a real array is real: each element is an element of the array. -/
theorem isReal_gather {s si t : Shape} {w : Nat} (d : GatherDims s si t) (x : s.Idx → EReal) (idx : IVec si w)
    (hx : ∀ i, IsReal (x i)) (j : t.Idx) : IsReal (Host.gather d x idx j) :=
  hx _

/-- **The neighbour sums are real.** Each is the zero literal plus the sum of the gathered feature entries that
    scatter to it, and every gathered entry is an entry of the feature array. -/
theorem seg_real (x0 : FVec Ideal S100000x64 .f32) (x1 : IVec S2x1600000 32) (hx : ∀ i, IsReal (x0 i)) (i : S100000x64.Idx) :
    IsReal (val_main_v14 (F := Ideal) x0 x1 i) := by
  have h12 : ∀ i, IsReal (val_main_v12 (F := Ideal) i) := fun i => by
    rw [val_main_v12_apply, val_main_cst_apply]
    exact isReal_zeroLit
  have h11 : ∀ j, IsReal (val_main_v11 (F := Ideal) x0 x1 j) := fun j => isReal_gather _ x0 _ hx j
  exact isReal_scatterAdd _ _ _ _ h12 h11 i

/-- **The reference's embeddings are the kernel's**: with real features, `1·x + (s + x) = 2·x + s` at every entry
    of every row. -/
theorem h_eq (x0 : FVec Ideal S100000x64 .f32) (x1 : IVec S2x1600000 32) (x4 : FVec Ideal S64x64 .f32) (x5 : FVec Ideal S64 .f32) (x6 : FVec Ideal S64x64 .f32) (x7 : FVec Ideal S64 .f32)
    (hx : ∀ i, IsReal (x0 i)) :
    val_main_v30 (F := Ideal) x0 x1 x4 x5 x6 x7 = encArr x0 (val_main_v14 (F := Ideal) x0 x1) x4 x5 x6 x7 := by
  funext i
  obtain ⟨r, c, rfl⟩ : ∃ (r : Fin 100000) (c : Fin 64), i = ix2 r c := ⟨i 0, i 1, eq_ix2 i⟩
  have hu : (fun l : Fin 64 => hinR (x0 (ix2 r l)) (val_main_v14 (F := Ideal) x0 x1 (ix2 r l)))
      = fun l => hinK (x0 (ix2 r l)) (val_main_v14 (F := Ideal) x0 x1 (ix2 r l)) :=
    funext fun l => hin_eq _ (hx _)
  rw [h_apply, hu]
  rfl

/-- **The embeddings are real** when the features and the encoder's weights are. -/
theorem h_real (x0 : FVec Ideal S100000x64 .f32) (x1 : IVec S2x1600000 32) (x4 : FVec Ideal S64x64 .f32) (x5 : FVec Ideal S64 .f32) (x6 : FVec Ideal S64x64 .f32) (x7 : FVec Ideal S64 .f32)
    (hx : ∀ i, IsReal (x0 i)) (h4 : ∀ i, IsReal (x4 i)) (h5 : ∀ i, IsReal (x5 i)) (h6 : ∀ i, IsReal (x6 i)) (h7 : ∀ i, IsReal (x7 i)) (i : S100000x64.Idx) :
    IsReal (val_main_v30 (F := Ideal) x0 x1 x4 x5 x6 x7 i) := by
  rw [h_eq x0 x1 x4 x5 x6 x7 hx]
  show IsReal (enc _ x4 x5 x6 x7 (i 1))
  exact isReal_enc _ x4 x5 x6 x7 _ (fun l => isReal_hinK (hx _) (seg_real x0 x1 hx _)) h4 h5 h6 h7

/-- **The reference's scores are the kernel's**: each gathered row is a row of real embeddings, and on real rows and
    a real weight matrix the 256-feature score equals the folded-block score. -/
theorem out_eq (x0 : FVec Ideal S100000x64 .f32) (x1 : IVec S2x1600000 32) (x3 : IVec S2x200000 32) (x4 : FVec Ideal S64x64 .f32) (x5 : FVec Ideal S64 .f32) (x6 : FVec Ideal S64x64 .f32) (x7 : FVec Ideal S64 .f32) (x8 : FVec Ideal S256x64 .f32) (x9 : FVec Ideal S64 .f32) (x10 : FVec Ideal S64x1 .f32) (x11 : FVec Ideal S1 .f32)
    (hx : ∀ i, IsReal (x0 i)) (h4 : ∀ i, IsReal (x4 i)) (h5 : ∀ i, IsReal (x5 i)) (h6 : ∀ i, IsReal (x6 i)) (h7 : ∀ i, IsReal (x7 i)) (h8 : ∀ i, IsReal (x8 i)) :
    val_main_v61 (F := Ideal) x0 x1 x3 x4 x5 x6 x7 x8 x9 x10 x11
      = decArr (val_main_v39 (F := Ideal) x0 x1 x3 x4 x5 x6 x7) (val_main_v48 (F := Ideal) x0 x1 x3 x4 x5 x6 x7) (foldAC x8) (foldAD x8) (blockB x8) x9 x10 x11 := by
  funext i
  obtain ⟨p, q, rfl⟩ : ∃ (p : Fin 200000) (q : Fin 1), i = ix2 p q := ⟨i 0, i 1, eq_ix2 i⟩
  -- a gathered entry is an entry of the embeddings
  have h1 : ∀ k : Fin 64, IsReal (val_main_v39 (F := Ideal) x0 x1 x3 x4 x5 x6 x7 (ix2 p k)) := fun k => by
    show IsReal (val_main_v30 (F := Ideal) x0 x1 x4 x5 x6 x7 _)
    exact h_real x0 x1 x4 x5 x6 x7 hx h4 h5 h6 h7 _
  have h2 : ∀ k : Fin 64, IsReal (val_main_v48 (F := Ideal) x0 x1 x3 x4 x5 x6 x7 (ix2 p k)) := fun k => by
    show IsReal (val_main_v30 (F := Ideal) x0 x1 x4 x5 x6 x7 _)
    exact h_real x0 x1 x4 x5 x6 x7 hx h4 h5 h6 h7 _
  rw [out_apply]
  exact (dec_eq _ _ x8 x9 x10 x11 q h1 h2 h8).symm

end Cert.ReferenceIdeal.RefValue

end
-- ==== Proof.lean ====
/-
  The kernel program and its reference compute the same scores on the extended reals whenever the float inputs are
  finite.

  Both programs sum, for every node, the features of its in-neighbours (a gather of the source rows and a
  scatter-add onto the destination rows, the same operations in both; the kernel's detour through a narrower
  float format is the identity here), feed `2·x + s` (the reference: `1·x + (s + x)`) through two dense layers with
  a ReLU each, gather the embeddings of the two nodes of every query pair, and score the pair by a dense layer over
  `[e1 + e2, e1 * e2, e1, e2]`, a ReLU and a last one-column layer. The kernel runs the two dense stacks in two
  launches, ten and twenty blocks of 10000 rows, and replaces the 256-wide layer by three 64-wide products with the
  folded weight blocks `A + C`, `A + D`, `B`. Read as values, the first launch leaves the embeddings of all nodes
  and the second the scores of all pairs; the reference's stages are the same functions, the encoder input by
  `x + x = 2·x` for a real `x`, the decoder by distributivity, which holds because every number entering it is real:
  the inputs by the precondition, the neighbour sums as finite sums of inputs, the embeddings as sums, products and
  maxima of those. The three frames are the generated ones, the reference's its run with the result dropped; no
  operation was rewritten in the idealization, so nothing is owed for it.
-/
import proofs.«131416_j17360257810534_2_alg».proof.Defs
import proofs.«131416_j17360257810534_2_alg».proof.Proof.Gen.Kernel
import proofs.«131416_j17360257810534_2_alg».proof.Proof.Gen.Kernel.Skeleton
import proofs.«131416_j17360257810534_2_alg».proof.Proof.Gen.Kernel.Launch
import proofs.«131416_j17360257810534_2_alg».proof.Proof.Gen.Kernel.Points
import proofs.«131416_j17360257810534_2_alg».proof.Proof.Gen.Kernel.Frame
import proofs.«131416_j17360257810534_2_alg».proof.Proof.Gen.KernelIdeal
import proofs.«131416_j17360257810534_2_alg».proof.Proof.Gen.KernelIdeal.Skeleton
import proofs.«131416_j17360257810534_2_alg».proof.Proof.Gen.KernelIdeal.Launch
import proofs.«131416_j17360257810534_2_alg».proof.Proof.Gen.KernelIdeal.Points
import proofs.«131416_j17360257810534_2_alg».proof.Proof.Gen.KernelIdeal.Frame
import proofs.«131416_j17360257810534_2_alg».proof.Proof.Gen.ReferenceIdeal
import proofs.«131416_j17360257810534_2_alg».proof.Proof.Gen.Pre_finite_inputs
import proofs.«131416_j17360257810534_2_alg».proof.Proof.Gen.ReferenceIdeal.Run
import proofs.«131416_j17360257810534_2_alg».proof.Proof.Gen.ReferenceIdeal.Read
import proofs.«131416_j17360257810534_2_alg».proof.Proof.KRun
import proofs.«131416_j17360257810534_2_alg».proof.Proof.KHost
import proofs.«131416_j17360257810534_2_alg».proof.Proof.Finite
import proofs.«131416_j17360257810534_2_alg».proof.Proof.RefBridge
import Idealize.ShloMosaic.Adequacy
import Idealize.ShloMosaic.Init

noncomputable section

namespace Cert.Proof

open Idealize.ShloMosaic Idealize.SL.Sem Cert.GinPair

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite float inputs the reference's result, as a function of the launch arrays, is the kernel's scores: the
    decoder by distributivity over real numbers, the embeddings under the two gathers by `x + x = 2·x`. -/
theorem ref_scores (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1) :
    Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.HostValue.Scores m c := by
  obtain ⟨h0, h4, h5, h6, h7, h8, -, -, -⟩ := real_of_pre _ _ _ _ _ _ _ _ _ _ _ _ hpre
  rw [Cert.ReferenceIdeal.RefValue.out_eq _ _ _ _ _ _ _ _ _ _ _ h0 h4 h5 h6 h7 h8]
  have hh := Cert.ReferenceIdeal.RefValue.h_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) h0
  show decArr (Host.gather Cert.ReferenceIdeal.gather_S100000x64_S200000x1_S200000x64_1_0_n_n_0_1_164
        (Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (Cert.ReferenceIdeal.Read.val_main_v38 (F := Ideal) (m ((c.tc : Thread Cert.KernelIdeal.nD Cert.KernelIdeal.τ).loc Cert.KernelIdeal.main_arg3))))
      (Host.gather Cert.ReferenceIdeal.gather_S100000x64_S200000x1_S200000x64_1_0_n_n_0_1_164
        (Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (Cert.ReferenceIdeal.Read.val_main_v47 (F := Ideal) (m ((c.tc : Thread Cert.KernelIdeal.nD Cert.KernelIdeal.τ).loc Cert.KernelIdeal.main_arg3)))) _ _ _ _ _ _ = _
  rw [hh]

/-- Run from memories agreeing on the arguments, both idealized programs end with the scores of all pairs in their
    result buffers and their arguments unchanged. -/
theorem algebraic : Cert.algebraic_KernelIdeal_ReferenceIdeal := by
  intro m ρ m' ρ' hpre hagree
  refine ⟨fun c => Cert.KernelIdeal.HostValue.Scores m c, ?_, ?_⟩
  · exact (θ_run Cert.KernelIdeal.defs _ _).mono
      (fun r h c => ⟨(h c).1.trans (Cert.KernelIdeal.HostValue.result_eq m ρ c), (h c).2⟩)
      (Cert.KernelIdeal.RunValue.run_boundary m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v61_eq]
    obtain ⟨e0, e1, e2, e3, e4, e5, e6, e7, e8, e9, e10, e11⟩ := hagree c
    rw [e0, e1, e3, e4, e5, e6, e7, e8, e9, e10, e11]
    exact ref_scores m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
